-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x168x64 : Shape := ⟨3, ![16, 168, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x168x64 : S_.BroadcastsInDim S16x168x64 (![] : Fin 0 → Fin S16x168x64.rank)
  reducesTo_S16x168x64_S_d0_1_2 : S16x168x64.ReducesTo [0, 1, 2] S_

variable [Facts]

def fn {F : FTy → Type} [FloatOps F] (main_arg0 : FVec F S16x2048x64 .f32) (main_arg1 : FVec F S16x168x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x168x64 .f32 := Host.absf main_arg1
  let main_cst_0 : FVec F S_ .f32 := constant S_ .f32 0x7F800000#32
  let main_v5 : FVec F S16x168x64 .f32 := broadcastInDim S16x168x64 ![] bcast_S_S16x168x64 main_cst_0
  let main_v6 : IVec S16x168x64 1 := cmpf .olt main_v4 main_v5
  let main_c_1 : IVec S_ 1 := constantI S_ 1 1#1
  let main_v7 : IVec S_ 1 := (fun x v => Host.reduce IntOp.andi x v reducesTo_S16x168x64_S_d0_1_2 h_S_) main_v6 main_c_1
  let main_v8 : IVec S_ 1 := andi main_v3 main_v7
  main_v8
-- ==== Kernel.lean ====
abbrev S16x2048x64 : Shape := ⟨3, ![16, 2048, 64]⟩
abbrev S16x168x64 : Shape := ⟨3, ![16, 168, 64]⟩
abbrev S16x2216x64 : Shape := ⟨3, ![16, 2216, 64]⟩
abbrev S16x2216x2216 : Shape := ⟨3, ![16, 2216, 2216]⟩
abbrev S1x768x64 : Shape := ⟨3, ![1, 768, 64]⟩
abbrev S1x2216x64 : Shape := ⟨3, ![1, 2216, 64]⟩
abbrev S1x768x2216 : Shape := ⟨3, ![1, 768, 2216]⟩
abbrev S768x64 : Shape := ⟨2, ![768, 64]⟩
abbrev S2216x64 : Shape := ⟨2, ![2216, 64]⟩
abbrev S768x2216 : Shape := ⟨2, ![768, 2216]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x64, .f32⟩
  | .hbm, ⟨1, _⟩ => ⟨S16x168x64, .f32⟩
  | .hbm, ⟨2, _⟩ => ⟨S16x2216x64, .f32⟩
  | .hbm, ⟨3, _⟩ => ⟨S16x2216x2216, .f32⟩
  | .local _ .vmem, ⟨0, _⟩ => ⟨S1x768x64, .f32⟩
  | .local _ .vmem, ⟨1, _⟩ => ⟨S1x768x64, .f32⟩
  | .local _ .vmem, ⟨2, _⟩ => ⟨S1x2216x64, .f32⟩
  | .local _ .vmem, ⟨3, _⟩ => ⟨S1x2216x64, .f32⟩
  | .local _ .vmem, ⟨4, _⟩ => ⟨S1x768x2216, .f32⟩
  | .local _ .vmem, ⟨5, _⟩ => ⟨S1x768x2216, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2216x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x2216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S16x2048x64_S16x168x64_S16x2216x64_d1 : Shape.Concatenates [S16x2048x64, S16x168x64] S16x2216x64 1
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  bitsLt_bf16_f32 : FTy.bits .bf16 < FTy.bits .f32
  inb_S1x2216x64_S1x2216x64_0_0_0 : ∀ a, (![0, 0, 0] : Fin 3 → Nat) a + S1x2216x64.size a ≤ S1x2216x64.size a
  h_S1x2216x64 : 0 < S1x2216x64.numel
  shapeCasts_S1x2216x64_S2216x64 : S1x2216x64.ShapeCasts S2216x64
  inb_S1x768x2216_S1x768x2216_0_0_0 : ∀ a, (![0, 0, 0] : Fin 3 → Nat) a + S1x768x2216.size a ≤ S1x768x2216.size a
  h_S1x768x2216 : 0 < S1x768x2216.numel
  shapeCasts_S1x768x2216_S768x2216 : S1x768x2216.ShapeCasts S768x2216
  shapeCasts_S768x2216_S1x768x2216 : S768x2216.ShapeCasts S1x768x2216
  dot_S768x64_S2216x64_S768x2216_1_1_0_0_n_n_wf : DotDims.WF S768x64 S2216x64 S768x2216 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x768x64.size a < S16x2216x64.size a
  hwx0_0 : ∀ i : grid0.Coords, EltTy.bits .f32 = 32 ∨ (Rect.unit (s := S16x2216x64) (fun a => cc0_transform_0 i a * S1x768x64.size a) (fun a => (Pipeline.Clip.of (cc0_transform_0 i a) (S1x768x64.size a) (S16x2216x64.size a)).extent (S1x768x64.size a)) fun a => Pipeline.Clip.inb (Pipeline.Clip.ok_of (hstart0_0 i a))).WholeWords (EltTy.packing .f32)
  hwxs0_0 : ∀ i : grid0.Coords, EltTy.bits .f32 = 32 ∨ (Rect.unit (s := S1x768x64) (fun _ => 0) (fun a => (Pipeline.Clip.of (cc0_transform_0 i a) (S1x768x64.size a) (S16x2216x64.size a)).extent (S1x768x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2216x64.size a ≤ S16x2216x64.size a
  hwx0_1 : ∀ i : grid0.Coords, EltTy.bits .f32 = 32 ∨ (Rect.block (s := S16x2216x64) S1x2216x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x768x2216.size a < S16x2216x2216.size a
  hwx0_2 : ∀ i : grid0.Coords, EltTy.bits .f32 = 32 ∨ (Rect.unit (s := S16x2216x2216) (fun a => cc0_transform_2 i a * S1x768x2216.size a) (fun a => (Pipeline.Clip.of (cc0_transform_2 i a) (S1x768x2216.size a) (S16x2216x2216.size a)).extent (S1x768x2216.size a)) fun a => Pipeline.Clip.inb (Pipeline.Clip.ok_of (hstart0_2 i a))).WholeWords (EltTy.packing .f32)
  hwxs0_2 : ∀ i : grid0.Coords, EltTy.bits .f32 = 32 ∨ (Rect.unit (s := S1x768x2216) (fun _ => 0) (fun a => (Pipeline.Clip.of (cc0_transform_2 i a) (S1x768x2216.size a) (S16x2216x2216.size a)).extent (S1x768x2216.size a)) fun a => (Nat.zero_add _).trans_le (Pipeline.Clip.extent_le (Pipeline.Clip.ok_of (hstart0_2 i a)))).WholeWords (EltTy.packing .f32)

variable [Facts₀]

def dot_S768x64_S2216x64_S768x2216_1_1_0_0_n_n : DotDims S768x64 S2216x64 S768x2216 where
  lhsContracting := [1]
  rhsContracting := [1]
  lhsNonContracting := [0]
  rhsNonContracting := [0]
  lhsBatch := []
  rhsBatch := []
  wf := dot_S768x64_S2216x64_S768x2216_1_1_0_0_n_n_wf

abbrev win0_0 : Pipeline.Window sig grid0 :=
  Pipeline.Window.ofSpecClip (Memref.whole main_v0) S1x768x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1x2216x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S1x768x2216.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x168x64 : Shape := ⟨3, ![16, 168, 64]⟩
abbrev S16x2216x64 : Shape := ⟨3, ![16, 2216, 64]⟩
abbrev S16x2216x2216 : Shape := ⟨3, ![16, 2216, 2216]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x168x64, .f32⟩
  | .hbm, ⟨2, _⟩ => ⟨S16x2216x64, .f32⟩
  | .hbm, ⟨3, _⟩ => ⟨S16x2216x2216, .f32⟩
  | .hbm, ⟨4, _⟩ => ⟨S_, .f32⟩
  | .hbm, ⟨5, _⟩ => ⟨S16x2216x2216, .f32⟩
  | .hbm, ⟨6, _⟩ => ⟨S16x2216x2216, .f32⟩
  | .hbm, ⟨7, _⟩ => ⟨S16x2216x2216, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  concatenates_S16x2048x64_S16x168x64_S16x2216x64_d1 : Shape.Concatenates [S16x2048x64, S16x168x64] S16x2216x64 1
  bcast_S_S16x2216x2216 : S_.BroadcastsInDim S16x2216x2216 (![] : Fin 0 → Fin S16x2216x2216.rank)
  dot_S16x2216x64_S16x2216x64_S16x2216x2216_2_2_1_1_0_0_wf : DotDims.WF S16x2216x64 S16x2216x64 S16x2216x2216 [2] [2] [1] [1] [0] [0]

variable [Facts₀]

def dot_S16x2216x64_S16x2216x64_S16x2216x2216_2_2_1_1_0_0 : DotDims S16x2216x64 S16x2216x64 S16x2216x2216 where
  lhsContracting := [2]
  rhsContracting := [2]
  lhsNonContracting := [1]
  rhsNonContracting := [1]
  lhsBatch := [0]
  rhsBatch := [0]
  wf := dot_S16x2216x64_S16x2216x64_S16x2216x2216_2_2_1_1_0_0_wf

class Facts : Prop extends Facts₀ where

variable [Facts]
-- ==== Proof.SharedLaunch.lean ====
/-
  The launch of the one kernel region, for a kernel whose two input windows read ONE array.

  The program concatenates its two arguments along the node axis into one array of node embeddings and hands that
  array to the kernel twice: once tiled by rows (the "query" rows of a row tile), once whole per batch (the "key"
  rows). Two windows on one array cannot each hold it whole: the array's full share is dealt between them — the left
  half to the row-tiled window, the right half to the whole-batch window, a share being all a read needs —, and
  the result array is the output window's alone, at the full share.

  Stated once, for any float instance and any relational proof data over these shares: every weakly fair execution
  of @main terminates, each window's array ends in the data's relation to its entry contents, and every other
  unscoped buffer (the two arguments) ends as the region found it — which is as launched, since the one host
  operation before the region writes only the concatenated array.
-/
import proofs.«167589_j63393717289324_2_alg».proof.Proof.Gen.Kernel.Launch
import proofs.«167589_j63393717289324_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers as the region finds them: the launch contents after the one host operation (the
    concatenation of the two arguments along the node axis). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The kernel's variants: none. -/
abbrev 𝒱₀ : Variants := Variants.none

/-- @main is the concatenation, then the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes neither argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))

/-! ## The shared array's share, dealt -/

/-- The buffers behind the windows' arrays are two: the concatenated array and the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The concatenated array whole at the full share is its two halves, one per input window; the result array is the
    output window's: the relational data's arrays at entry, for data that deals the shares so. -/
theorem arrays_of_arrBufs (c : Dev nD) (rd : RDat τ (Elt F) Unit ℕ (UR sig nD τ) ℕ cfg0 c)
    (hq0 : rd.q 0 = fullShare.left) (hq1 : rd.q 1 = fullShare.right)
    (hA : ∀ w, rd.A w = V m c (Pipeline.arrRef spec0 w)) :
    (Pipeline.arrBufs (Ix := Unit) (Name := ℕ) (U := UR sig nD τ) (Lvl := ℕ) spec0 c (V m c) : sProp 𝕄) ⊢ rd.arrays rd.A := by
  rw [arrBufs_eq]
  unfold RDat.arrays
  rw [bigSep_W0]
  have h0 : rd.share 0 = fullShare.left := by unfold RDat.share; rw [← hq0]; rfl
  have h1 : rd.share 1 = fullShare.right := by unfold RDat.share; rw [← hq1]; rfl
  have h2 : rd.share 2 = fullShare := rfl
  rw [h0, h1, h2, hA 0, hA 1, hA 2, (arr_whole0 0).set_eq_univ, (arr_whole0 2).set_eq_univ]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-! ## The run -/

/-- The run's post: each window's array ends in the data's relation to its entry contents after every write-back;
    every other unscoped buffer ends as the region found it. -/
def SharedPost (rdat : (c : Dev nD) → RDat τ (Elt F) Unit ℕ (UR sig nD τ) ℕ cfg0 c) (r : PUnit × MemSt nD τ sig (Elt F)) : Prop :=
  ∀ c : Dev nD, (∀ w, (rdat c).ArrAt w cfg0.N (r.2.mem ((spec0 w).arr.view.loc (c.tc : Thread nD τ))))
    ∧ ∀ b ∈ Pipeline.restRefs sig spec0, r.2.mem ((c.tc : Thread nD τ).loc b) = V m c b

/-- THE RUN: at the compiled mesh, for any float values, from any memory with zero counters, every weakly fair
    execution of @main terminates, nothing faulting, in a state satisfying `SharedPost` — for relational proof data
    that hold the concatenated array by halves, owe nothing, keep the class's invariant (the core's scoped buffers
    that are no staging buffer, and the generator register) and whose body obligation holds. -/
theorem run_shared (rdat : (c : Dev nD) → RDat τ (Elt F) Unit ℕ (UR sig nD τ) ℕ cfg0 c)
    (hbody : ∀ c, (rdat c).BodyObligation (defs₀ (F := F)) 𝒱₀ () Set.univ)
    (hq0 : ∀ c, (rdat c).q 0 = fullShare.left) (hq1 : ∀ c, (rdat c).q 1 = fullShare.right)
    (howed : ∀ c t, (rdat c).owed t = 0)
    (hA : ∀ c w, (rdat c).A w = V m c (Pipeline.arrRef spec0 w))
    (hΦ : ∀ c t, (rdat c).Φ t = Pipeline.ΦA spec0 c) :
    θ_run (defs (F := F)) (onTc (τ := τ) (main (F := F))) (s₀ m ρ) (SharedPost m rdat) := by
  classical
  exact Pipeline.RDat.θ_run_region_pf (fun q => (cfgs q).toPCfg (Val := Elt F)) (fun q => (cfgs q).toPCfg_adm) (fun _ c => rdat c) ()
    cellOf_inj (0 : Fin 1) winFacts₀0 (Pipeline.OwnSemFacts.none spec0) (Pipeline.PreFacts.none _) emb₁ defs₀ 𝒱₀ m ρ main
    (fun c => hbody c) block_pos0 arr_whole0 stage_whole0 (fun c t => howed c t)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => arrays_of_arrBufs m c (rdat c) (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w, fun b hb => (h c).2.2 b (by
      rw [show Pipeline.restRefsP sig Pipeline.Prefetch.none spec0 = Pipeline.restRefs sig spec0 from Finset.sdiff_empty]; exact hb)⟩)

/-- The two arguments are unscoped buffers that are no window's array: the run's post has each as launched. -/
theorem SharedPost.args {rdat : (c : Dev nD) → RDat τ (Elt F) Unit ℕ (UR sig nD τ) ℕ cfg0 c} {r : PUnit × MemSt nD τ sig (Elt F)}
    (h : SharedPost m rdat r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).2 main_arg0 (Pipeline.mem_restRefs_of main_arg0 rfl (by decide))).trans (V_main_arg0 m c),
   ((h c).2 main_arg1 (Pipeline.mem_restRefs_of main_arg1 rfl (by decide))).trans (V_main_arg1 m c)⟩

end Cert.Kernel.Hand

end
-- ==== Proof.TileBody.lean ====
/-
  The kernel body's triple, for any float instance.

  The body reads the row tile of "query" rows and the whole batch of "key" rows out of their staging buffers, reads
  (and drops) the result tile's buffer, and overwrites that buffer whole with one value computed from the two it
  read: the two operands contracted over the feature axis, clamped below at zero, through tanh. So after the body
  the two input buffers hold what they held, and the result tile's buffer holds that value of them.
-/
import proofs.«167589_j63393717289324_2_alg».proof.Proof.Gen.Kernel.Skeleton
import proofs.«167589_j63393717289324_2_alg».proof.Proof.Gen.Kernel.Launch
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's three accesses: each a whole staging buffer. -/
abbrev rQ : Rect S1x768x64 := Rect.unit (s := S1x768x64) ![0, 0, 0] S1x768x64.size inb_S1x768x64_S1x768x64_0_0_0
abbrev rK : Rect S1x2216x64 := Rect.unit (s := S1x2216x64) ![0, 0, 0] S1x2216x64.size inb_S1x2216x64_S1x2216x64_0_0_0
abbrev rO : Rect S1x768x2216 := Rect.unit (s := S1x768x2216) ![0, 0, 0] S1x768x2216.size inb_S1x768x2216_S1x768x2216_0_0_0

/-- What the body leaves in the result tile's buffer, from what the two input buffers read: its one store. -/
def tileOut (x0 : Vec F S1x768x64 .f32) (x1 : Vec F S1x2216x64 .f32) : Vec F S1x768x2216 .f32 :=
  View.canon [⟨rO, k0_pay1 (View.ld x0 rQ) (View.ld x1 rK)⟩]

/-- The one store covers the buffer: its rectangle is the whole shape. -/
theorem tile_cover (p0 : Vec F S1x768x2216 .f32) (y : S1x768x2216.Idx) :
    ∃ pc ∈ ([⟨rO, p0⟩] : List (View.Piece (Elt F) S1x768x2216 .f32)), y ∈ pc.1.set := by
  refine ⟨⟨rO, p0⟩, List.mem_singleton.mpr rfl, ?_⟩
  rw [Rect.mem_set_unit]
  intro a
  have := (y a).isLt
  match a with
  | ⟨0, _⟩ => exact ⟨Nat.zero_le _, by simpa using this⟩
  | ⟨1, _⟩ => exact ⟨Nat.zero_le _, by simpa using this⟩
  | ⟨2, _⟩ => exact ⟨Nat.zero_le _, by simpa using this⟩

set_option maxHeartbeats 1000000 in
/-- The body on whole staging memrefs — the inputs' at read contents `x0`, `x1`, the result's at anything — runs to
    the continuation holding the inputs' as they were and the result's at `tileOut x0 x1`. -/
theorem sound_kernel (c : Dev nD) (E : Set ℕ) (i : grid0.Coords)
    (arg2 : Memref sig .tc .vmem S1x768x64 .f32) (harg2 : arg2.IsWhole)
    (arg3 : Memref sig .tc .vmem S1x2216x64 .f32) (harg3 : arg3.IsWhole)
    (arg4 : Memref sig .tc .vmem S1x768x2216 .f32) (harg4 : arg4.IsWhole)
    (x0 : Vec F S1x768x64 .f32) (x1 : Vec F S1x2216x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__adj_kernel i arg2 harg2 arg3 harg3 arg4 harg4) K := by
  simp only [cc0__adj_kernel_eq_skeleton]; unfold cc0__adj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.Kernel.Hand

end
-- ==== Proof.FrameFree.lean ====
/-
  The frame of the kernel as printed (any float instance; cited at the word-level one): it runs to the end, faults
  nowhere, and leaves its two arguments as launched.

  Nothing is said of what the body computes. The proof data are relational and ask nothing of any staging buffer:
  whatever the three current buffers hold, the body reads the two input buffers and overwrites the result's, and
  hands all three back at some contents. The concatenated array is held by halves, one per input window.
-/
import proofs.«167589_j63393717289324_2_alg».proof.Proof.SharedLaunch
import proofs.«167589_j63393717289324_2_alg».proof.Proof.TileBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data that constrain nothing: the arrays as the region finds them, any contents left in any
    staging buffer, the class's invariant, the concatenated array's share dealt left and right, nothing owed. -/
def rfree (c : Dev nD) : RDat τ (Elt F) Unit ℕ (UR sig nD τ) ℕ cfg0 c where
  A w := V m c (Pipeline.arrRef spec0 w)
  after _ _ _ _ := True
  Φ _ := Pipeline.ΦA spec0 c
  q w := match w with
    | ⟨0, _⟩ => fullShare.left
    | ⟨1, _⟩ => fullShare.right
    | ⟨2, _⟩ => fullShare
  owed _ := 0

/-- The body at any point, on whatever the three current staging buffers hold. -/
theorem free_point (c : Dev nD) (t : Fin cfg0.N) (Y0 : Vec F S1x768x64 .f32) (Y1 : Vec F S1x2216x64 .f32) (Y2 : Vec F S1x768x2216 .f32) :
    iprop((rfree m c).Φ t.castSucc ∗ (rfree m c).owesAt () t.castSucc
        ∗ owns (c : Thread nD τ) (st0_0 t) fullShare Y0 ∗ owns (c : Thread nD τ) (st0_1 t) fullShare Y1 ∗ owns (c : Thread nD τ) (st0_2 t) fullShare Y2)
      ⊢ wp frame (wpE (defs₀ (F := F)) 𝒱₀ c none) Set.univ (bodyAt0 t) fun _ =>
          iprop((rfree m c).Φ t.succ ∗ (rfree m c).owesAt () t.succ
            ∗ (∃ X, ⌜True⌝ ∗ owns (c : Thread nD τ) (st0_0 t) fullShare X)
            ∗ (∃ X, ⌜True⌝ ∗ owns (c : Thread nD τ) (st0_1 t) fullShare X)
            ∗ (∃ X, ⌜True⌝ ∗ owns (c : Thread nD τ) (st0_2 t) fullShare X)) := by
  rw [show (rfree m c).Φ t.succ = (rfree m c).Φ t.castSucc from rfl,
    show (rfree m c).owesAt () t.succ = (rfree m c).owesAt () t.castSucc from rfl]
  unfold bodyAt0
  iintro ⟨HΦ, Ho, H0, H1, H2⟩
  iapply (sound_kernel c Set.univ (grid0.coords t) _ _ _ _ _ _ Y0 Y1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; · ipureintro; trivial
    iexact H0
  isplitl [H1]
  · iexists _; isplitr; · ipureintro; trivial
    iexact H1
  · iexists _; isplitr; · ipureintro; trivial
    iexact H2

theorem free_body (c : Dev nD) : (rfree m c).BodyObligation (defs₀ (F := F)) 𝒱₀ () Set.univ := fun t Y _ => by
  rw [bigSep_W0, bigSep_W0]
  exact free_point m c t (Y 0) (Y 1) (Y 2)

/-- Every weakly fair execution of @main terminates, nothing faulting, the two arguments as launched. -/
theorem frame :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => SharedPost.args m h c)
    (run_shared m ρ (rfree m) (free_body m) (fun _ => rfl) (fun _ => rfl) (fun _ _ => rfl) (fun _ _ => rfl) (fun _ _ => rfl))

end Cert.Kernel.Hand

end
-- ==== Proof.SharedLaunchIdeal.lean ====
/-
  The launch of the one kernel region, for a kernel whose two input windows read ONE array.

  The program concatenates its two arguments along the node axis into one array of node embeddings and hands that
  array to the kernel twice: once tiled by rows (the "query" rows of a row tile), once whole per batch (the "key"
  rows). Two windows on one array cannot each hold it whole: the array's full share is dealt between them — the left
  half to the row-tiled window, the right half to the whole-batch window, a share being all a read needs —, and
  the result array is the output window's alone, at the full share.

  Stated once, for any float instance and any relational proof data over these shares: every weakly fair execution
  of @main terminates, each window's array ends in the data's relation to its entry contents, and every other
  unscoped buffer (the two arguments) ends as the region found it — which is as launched, since the one host
  operation before the region writes only the concatenated array.
-/
import proofs.«167589_j63393717289324_2_alg».proof.Proof.Gen.KernelIdeal.Launch
import proofs.«167589_j63393717289324_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers as the region finds them: the launch contents after the one host operation (the
    concatenation of the two arguments along the node axis). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The kernel's variants: none. -/
abbrev 𝒱₀ : Variants := Variants.none

/-- @main is the concatenation, then the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes neither argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))

/-! ## The shared array's share, dealt -/

/-- The buffers behind the windows' arrays are two: the concatenated array and the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The concatenated array whole at the full share is its two halves, one per input window; the result array is the
    output window's: the relational data's arrays at entry, for data that deals the shares so. -/
theorem arrays_of_arrBufs (c : Dev nD) (rd : RDat τ (Elt F) Unit ℕ (UR sig nD τ) ℕ cfg0 c)
    (hq0 : rd.q 0 = fullShare.left) (hq1 : rd.q 1 = fullShare.right)
    (hA : ∀ w, rd.A w = V m c (Pipeline.arrRef spec0 w)) :
    (Pipeline.arrBufs (Ix := Unit) (Name := ℕ) (U := UR sig nD τ) (Lvl := ℕ) spec0 c (V m c) : sProp 𝕄) ⊢ rd.arrays rd.A := by
  rw [arrBufs_eq]
  unfold RDat.arrays
  rw [bigSep_W0]
  have h0 : rd.share 0 = fullShare.left := by unfold RDat.share; rw [← hq0]; rfl
  have h1 : rd.share 1 = fullShare.right := by unfold RDat.share; rw [← hq1]; rfl
  have h2 : rd.share 2 = fullShare := rfl
  rw [h0, h1, h2, hA 0, hA 1, hA 2, (arr_whole0 0).set_eq_univ, (arr_whole0 2).set_eq_univ]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-! ## The run -/

/-- The run's post: each window's array ends in the data's relation to its entry contents after every write-back;
    every other unscoped buffer ends as the region found it. -/
def SharedPost (rdat : (c : Dev nD) → RDat τ (Elt F) Unit ℕ (UR sig nD τ) ℕ cfg0 c) (r : PUnit × MemSt nD τ sig (Elt F)) : Prop :=
  ∀ c : Dev nD, (∀ w, (rdat c).ArrAt w cfg0.N (r.2.mem ((spec0 w).arr.view.loc (c.tc : Thread nD τ))))
    ∧ ∀ b ∈ Pipeline.restRefs sig spec0, r.2.mem ((c.tc : Thread nD τ).loc b) = V m c b

/-- THE RUN: at the compiled mesh, for any float values, from any memory with zero counters, every weakly fair
    execution of @main terminates, nothing faulting, in a state satisfying `SharedPost` — for relational proof data
    that hold the concatenated array by halves, owe nothing, keep the class's invariant (the core's scoped buffers
    that are no staging buffer, and the generator register) and whose body obligation holds. -/
theorem run_shared (rdat : (c : Dev nD) → RDat τ (Elt F) Unit ℕ (UR sig nD τ) ℕ cfg0 c)
    (hbody : ∀ c, (rdat c).BodyObligation (defs₀ (F := F)) 𝒱₀ () Set.univ)
    (hq0 : ∀ c, (rdat c).q 0 = fullShare.left) (hq1 : ∀ c, (rdat c).q 1 = fullShare.right)
    (howed : ∀ c t, (rdat c).owed t = 0)
    (hA : ∀ c w, (rdat c).A w = V m c (Pipeline.arrRef spec0 w))
    (hΦ : ∀ c t, (rdat c).Φ t = Pipeline.ΦA spec0 c) :
    θ_run (defs (F := F)) (onTc (τ := τ) (main (F := F))) (s₀ m ρ) (SharedPost m rdat) := by
  classical
  exact Pipeline.RDat.θ_run_region_pf (fun q => (cfgs q).toPCfg (Val := Elt F)) (fun q => (cfgs q).toPCfg_adm) (fun _ c => rdat c) ()
    cellOf_inj (0 : Fin 1) winFacts₀0 (Pipeline.OwnSemFacts.none spec0) (Pipeline.PreFacts.none _) emb₁ defs₀ 𝒱₀ m ρ main
    (fun c => hbody c) block_pos0 arr_whole0 stage_whole0 (fun c t => howed c t)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => arrays_of_arrBufs m c (rdat c) (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w, fun b hb => (h c).2.2 b (by
      rw [show Pipeline.restRefsP sig Pipeline.Prefetch.none spec0 = Pipeline.restRefs sig spec0 from Finset.sdiff_empty]; exact hb)⟩)

/-- The two arguments are unscoped buffers that are no window's array: the run's post has each as launched. -/
theorem SharedPost.args {rdat : (c : Dev nD) → RDat τ (Elt F) Unit ℕ (UR sig nD τ) ℕ cfg0 c} {r : PUnit × MemSt nD τ sig (Elt F)}
    (h : SharedPost m rdat r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).2 main_arg0 (Pipeline.mem_restRefs_of main_arg0 rfl (by decide))).trans (V_main_arg0 m c),
   ((h c).2 main_arg1 (Pipeline.mem_restRefs_of main_arg1 rfl (by decide))).trans (V_main_arg1 m c)⟩

end Cert.KernelIdeal.Hand

end
-- ==== Proof.TileBodyIdeal.lean ====
/-
  The kernel body's triple, for any float instance.

  The body reads the row tile of "query" rows and the whole batch of "key" rows out of their staging buffers, reads
  (and drops) the result tile's buffer, and overwrites that buffer whole with one value computed from the two it
  read: the two operands contracted over the feature axis, clamped below at zero, through tanh. So after the body
  the two input buffers hold what they held, and the result tile's buffer holds that value of them.
-/
import proofs.«167589_j63393717289324_2_alg».proof.Proof.Gen.KernelIdeal.Skeleton
import proofs.«167589_j63393717289324_2_alg».proof.Proof.Gen.KernelIdeal.Launch
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's three accesses: each a whole staging buffer. -/
abbrev rQ : Rect S1x768x64 := Rect.unit (s := S1x768x64) ![0, 0, 0] S1x768x64.size inb_S1x768x64_S1x768x64_0_0_0
abbrev rK : Rect S1x2216x64 := Rect.unit (s := S1x2216x64) ![0, 0, 0] S1x2216x64.size inb_S1x2216x64_S1x2216x64_0_0_0
abbrev rO : Rect S1x768x2216 := Rect.unit (s := S1x768x2216) ![0, 0, 0] S1x768x2216.size inb_S1x768x2216_S1x768x2216_0_0_0

/-- What the body leaves in the result tile's buffer, from what the two input buffers read: its one store. -/
def tileOut (x0 : Vec F S1x768x64 .f32) (x1 : Vec F S1x2216x64 .f32) : Vec F S1x768x2216 .f32 :=
  View.canon [⟨rO, k0_pay1 (View.ld x0 rQ) (View.ld x1 rK)⟩]

/-- The one store covers the buffer: its rectangle is the whole shape. -/
theorem tile_cover (p0 : Vec F S1x768x2216 .f32) (y : S1x768x2216.Idx) :
    ∃ pc ∈ ([⟨rO, p0⟩] : List (View.Piece (Elt F) S1x768x2216 .f32)), y ∈ pc.1.set := by
  refine ⟨⟨rO, p0⟩, List.mem_singleton.mpr rfl, ?_⟩
  rw [Rect.mem_set_unit]
  intro a
  have := (y a).isLt
  match a with
  | ⟨0, _⟩ => exact ⟨Nat.zero_le _, by simpa using this⟩
  | ⟨1, _⟩ => exact ⟨Nat.zero_le _, by simpa using this⟩
  | ⟨2, _⟩ => exact ⟨Nat.zero_le _, by simpa using this⟩

set_option maxHeartbeats 1000000 in
/-- The body on whole staging memrefs — the inputs' at read contents `x0`, `x1`, the result's at anything — runs to
    the continuation holding the inputs' as they were and the result's at `tileOut x0 x1`. -/
theorem sound_kernel (c : Dev nD) (E : Set ℕ) (i : grid0.Coords)
    (arg2 : Memref sig .tc .vmem S1x768x64 .f32) (harg2 : arg2.IsWhole)
    (arg3 : Memref sig .tc .vmem S1x2216x64 .f32) (harg3 : arg3.IsWhole)
    (arg4 : Memref sig .tc .vmem S1x768x2216 .f32) (harg4 : arg4.IsWhole)
    (x0 : Vec F S1x768x64 .f32) (x1 : Vec F S1x2216x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__adj_kernel i arg2 harg2 arg3 harg3 arg4 harg4) K := by
  simp only [cc0__adj_kernel_eq_skeleton]; unfold cc0__adj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.KernelIdeal.Hand

end
-- ==== Proof.TileValue.lean ====
/-
  The row tile's value, over the extended reals.

  What the body stores at row `r`, column `c` of its tile is the inner product, over the 64 features, of row `r` of
  the query tile with row `c` of the key block — the matrix unit's contraction into a zero accumulator is that plain
  sum, and the changes of float format around it are the identity —, clamped below at zero, through tanh.
-/
import proofs.«167589_j63393717289324_2_alg».proof.Proof.TileBodyIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The contraction's index maps: query row and feature on the left, key row and feature on the right -/

theorem dot_lhs0 (j : S768x2216.Idx) (q : dot_S768x64_S2216x64_S768x2216_1_1_0_0_n_n.contr.Idx) : (dot_S768x64_S2216x64_S768x2216_1_1_0_0_n_n.lhsIdx j q 0).val = (j 0).val := by
  unfold DotDims.lhsIdx
  rw [dif_neg (show ¬(0 : Fin S768x64.rank) ∈ dot_S768x64_S2216x64_S768x2216_1_1_0_0_n_n.lhsBatch by decide), dif_pos (show (0 : Fin S768x64.rank) ∈ dot_S768x64_S2216x64_S768x2216_1_1_0_0_n_n.lhsNonContracting by decide)]
  rfl
theorem dot_lhs1 (j : S768x2216.Idx) (q : dot_S768x64_S2216x64_S768x2216_1_1_0_0_n_n.contr.Idx) : (dot_S768x64_S2216x64_S768x2216_1_1_0_0_n_n.lhsIdx j q 1).val = (q ⟨0, by decide⟩).val :=
  dot_S768x64_S2216x64_S768x2216_1_1_0_0_n_n.lhsIdx_val_of_single rfl j q
theorem dot_rhs0 (j : S768x2216.Idx) (q : dot_S768x64_S2216x64_S768x2216_1_1_0_0_n_n.contr.Idx) : (dot_S768x64_S2216x64_S768x2216_1_1_0_0_n_n.rhsIdx j q 0).val = (j 1).val := by
  unfold DotDims.rhsIdx
  rw [dif_neg (show ¬(0 : Fin S2216x64.rank) ∈ dot_S768x64_S2216x64_S768x2216_1_1_0_0_n_n.rhsBatch by decide), dif_pos (show (0 : Fin S2216x64.rank) ∈ dot_S768x64_S2216x64_S768x2216_1_1_0_0_n_n.rhsNonContracting by decide)]
  rfl
theorem dot_rhs1 (j : S768x2216.Idx) (q : dot_S768x64_S2216x64_S768x2216_1_1_0_0_n_n.contr.Idx) : (dot_S768x64_S2216x64_S768x2216_1_1_0_0_n_n.rhsIdx j q 1).val = (q ⟨0, by decide⟩).val :=
  dot_S768x64_S2216x64_S768x2216_1_1_0_0_n_n.rhsIdx_val_of_single rfl j q

/-! ## The stored value at an entry of the tile -/

/-- Row `r`, column `c` of the stored tile: `tanh (max (∑ k, q[r, k] · key[c, k]) 0)`. -/
theorem pay_apply (x0 : Vec Ideal S1x768x64 .f32) (x1 : Vec Ideal S1x2216x64 .f32) (u : Fin 1) (r : Fin 768) (cc : Fin 2216) :
    k0_pay1 (F := Ideal) x0 x1 (ix3 u r cc)
      = Ideal.tanh (max (∑ k : Fin 64, x0 (ix3 (0 : Fin 1) r k) * x1 (ix3 (0 : Fin 1) cc k)) (Ideal.ofBits .f32 0x00000000#32)) := by
  unfold k0_pay1
  refine (shapeCast_ab_1ab_apply _ _ u r cc).trans ?_
  show Ideal.tanh (max (FloatOps.matmul (F := Ideal) dot_S768x64_S2216x64_S768x2216_1_1_0_0_n_n none (truncf (F := Ideal) .bf16 (shapeCast S768x64 x0 shapeCasts_S1x768x64_S768x64) bitsLt_bf16_f32) (truncf (F := Ideal) .bf16 (shapeCast S2216x64 x1 shapeCasts_S1x2216x64_S2216x64) bitsLt_bf16_f32) (constant (F := Ideal) S768x2216 .f32 0x00000000#32) (ix2 r cc)) (Ideal.ofBits .f32 0x00000000#32)) = _
  refine congrArg (fun s => Ideal.tanh (max s (Ideal.ofBits .f32 0x00000000#32))) ?_
  refine (Ideal.matmul_constant_zero_apply dot_S768x64_S2216x64_S768x2216_1_1_0_0_n_n none _ _ (ix2 r cc)).trans ?_
  rw [← Equiv.sum_comp (ValueIdx.contrEquiv1 dot_S768x64_S2216x64_S768x2216_1_1_0_0_n_n 64 rfl rfl).symm]
  refine Finset.sum_congr rfl fun k _ => ?_
  have hk := ValueIdx.contrEquiv1_symm_val dot_S768x64_S2216x64_S768x2216_1_1_0_0_n_n 64 rfl rfl k
  have el : dot_S768x64_S2216x64_S768x2216_1_1_0_0_n_n.lhsIdx (ix2 r cc) ((ValueIdx.contrEquiv1 dot_S768x64_S2216x64_S768x2216_1_1_0_0_n_n 64 rfl rfl).symm k) = ix2 r k := funext fun a => Fin.ext (by
    match a with
    | ⟨0, _⟩ => exact dot_lhs0 _ _
    | ⟨1, _⟩ => exact (dot_lhs1 _ _).trans hk)
  have er : dot_S768x64_S2216x64_S768x2216_1_1_0_0_n_n.rhsIdx (ix2 r cc) ((ValueIdx.contrEquiv1 dot_S768x64_S2216x64_S768x2216_1_1_0_0_n_n 64 rfl rfl).symm k) = ix2 cc k := funext fun a => Fin.ext (by
    match a with
    | ⟨0, _⟩ => exact dot_rhs0 _ _
    | ⟨1, _⟩ => exact (dot_rhs1 _ _).trans hk)
  rw [el, er]
  show shapeCast S768x64 x0 shapeCasts_S1x768x64_S768x64 (ix2 r k) * shapeCast S2216x64 x1 shapeCasts_S1x2216x64_S2216x64 (ix2 cc k) = _
  rw [shapeCast_1ab_ab_apply, shapeCast_1ab_ab_apply]

/-- The body's one store is whole: what it leaves in the result tile's buffer is the stored value itself. -/
theorem tileOut_eq (x0 : Vec Ideal S1x768x64 .f32) (x1 : Vec Ideal S1x2216x64 .f32) : tileOut (F := Ideal) x0 x1 = k0_pay1 (F := Ideal) x0 x1 := by
  have hz : (![0, 0, 0] : Fin 3 → Nat) = fun _ => 0 := funext fun a => by match a with | ⟨0, _⟩ => rfl | ⟨1, _⟩ => rfl | ⟨2, _⟩ => rfl
  unfold tileOut
  rw [View.canon_unit_zero hz]
  simp only [View.ld_unit_zero (S := S1x768x64) hz, View.ld_unit_zero (S := S1x2216x64) hz]

end Cert.KernelIdeal.Hand

end
-- ==== Proof.AdjacencySpec.lean ====
/-
  The function both programs compute, over the extended reals: the dense adjacency of a batch of node embeddings.

  For a batch `b` and two nodes `n`, `n'`, the entry is the inner product of the two nodes' embeddings over the 64
  features, clamped below at zero, through tanh. No law of the extended reals is needed to join the two programs:
  both spell this very sum, the kernel one row tile at a time.
-/
import Idealize.ShloMosaic.PureOps.Ideal
import Idealize.ShloMosaic.Lib.ValueIdx

noncomputable section

namespace Adjacency

open Idealize.ShloMosaic Idealize.ShloMosaic.ValueIdx

/-- One entry: `tanh (max (∑ k, E[b, n, k] · E[b, n', k]) 0)`. The zero is kept as the word both programs print. -/
def entry (E : (⟨3, ![16, 2216, 64]⟩ : Shape).Idx → EReal) (b : Fin 16) (n n' : Fin 2216) : EReal :=
  Ideal.tanh (max (∑ k : Fin 64, E (ix3 b n k) * E (ix3 b n' k)) (Ideal.ofBits .f32 0x00000000#32))

/-- The whole array of entries. -/
def adj (E : (⟨3, ![16, 2216, 64]⟩ : Shape).Idx → EReal) : (⟨3, ![16, 2216, 2216]⟩ : Shape).Idx → EReal :=
  fun i => entry E (i 0) (i 1) (i 2)

end Adjacency

end
-- ==== Proof.TileBlock.lean ====
/-
  A row tile of the kernel is the same rows of the adjacency.

  At grid point `t` — batch `b`, row tile `i` — the query window holds rows `768·i …` of batch `b` of the embeddings
  (at the last tile only the first 680 of them: the rest of the buffer is past the array's end and holds anything),
  the key window all 2216 rows of batch `b`, and the result window is rows `768·i …` of batch `b` of the result, cut
  at the array's end the same way. An entry of the stored tile on a row inside the array reads only that row of the
  query buffer, which is inside the embeddings: so, whatever lies past the array's end in the query buffer, the part
  of the stored tile that is written back is that block of the adjacency of the embeddings.
-/
import proofs.«167589_j63393717289324_2_alg».proof.Proof.TileValue
import proofs.«167589_j63393717289324_2_alg».proof.Proof.AdjacencySpec
import proofs.«167589_j63393717289324_2_alg».proof.Proof.Gen.KernelIdeal.Points

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Window)

/-- How the transfers cut the blocks: the query and result tiles alike on the row axis, nowhere else. -/
theorem cuts : ∀ i : grid0.Coords, win0_0.xsize i 0 = 1 ∧ win0_0.xsize i 2 = 64 ∧ win0_0.xsize i 1 = win0_2.xsize i 1 ∧ win0_2.xsize i 0 = 1 := by
  decide +kernel

/-- The three index maps: one batch, one row tile for query and result, everything else the first block. -/
theorem idx_facts : ∀ t : Fin cfg0.N, win0_0.index t 0 = win0_2.index t 0 ∧ win0_1.index t 0 = win0_2.index t 0
    ∧ win0_0.index t 1 = win0_2.index t 1 ∧ win0_0.index t 2 = 0 ∧ win0_1.index t 1 = 0 ∧ win0_1.index t 2 = 0 ∧ win0_2.index t 2 = 0 :=
  (by decide +kernel : ∀ t : Fin grid0.N, win0_0.index t 0 = win0_2.index t 0 ∧ win0_1.index t 0 = win0_2.index t 0
    ∧ win0_0.index t 1 = win0_2.index t 1 ∧ win0_0.index t 2 = 0 ∧ win0_1.index t 1 = 0 ∧ win0_1.index t 2 = 0 ∧ win0_2.index t 2 = 0)

/-- A window's block read at an index of the block is the array at the index's place in the array. -/
theorem q_read (E : (⟨S16x2216x64, .f32⟩ : BufTy).Contents (Elt Ideal)) (t : Fin cfg0.N) (y : (win0_0.xblock (grid0.coords t)).Idx) :
    (win0_0.blk t).view.read (Elt Ideal) E y = E ((win0_0.blk t).view.emb y) := rfl
theorem k_read (E : (⟨S16x2216x64, .f32⟩ : BufTy).Contents (Elt Ideal)) (t : Fin cfg0.N) (y : S1x2216x64.Idx) :
    (win0_1.blk t).view.read (Elt Ideal) E y = E ((win0_1.blk t).view.emb y) := rfl

/-- The query buffer at a row inside the array: the embeddings at the batch and row of the tile, whatever fills the
    buffer past the array's end. -/
theorem q_at (E : (⟨S16x2216x64, .f32⟩ : BufTy).Contents (Elt Ideal)) (t : Fin cfg0.N) (d0 : Vec Ideal S1x768x64 .f32)
    (r : Fin 768) (k : Fin 64) (hr : r.val < win0_0.xsize (grid0.coords t) 1) (i : S16x2216x64.Idx)
    (h0 : (i 0).val = win0_0.index t 0) (h1 : (i 1).val = win0_0.index t 1 * 768 + r.val) (h2 : (i 2).val = k.val) :
    win0_0.fill (grid0.coords t) d0 ((win0_0.blk t).view.read (Elt Ideal) E) (ix3 (0 : Fin 1) r k) = E i := by
  obtain ⟨h00, h02, -, -⟩ := cuts (grid0.coords t)
  obtain ⟨-, -, -, i02, -, -, -⟩ := idx_facts t
  unfold Window.fill
  rw [dif_pos ((win0_0.moved_iff _ _).mpr fun a => by
    match a with
    | ⟨0, _⟩ => show 0 < win0_0.xsize (grid0.coords t) 0; omega
    | ⟨1, _⟩ => show r.val < win0_0.xsize (grid0.coords t) 1; omega
    | ⟨2, _⟩ => show k.val < win0_0.xsize (grid0.coords t) 2; have := k.isLt; omega)]
  rw [q_read]
  refine congrArg E (funext fun a => Fin.ext ?_)
  match a with
  | ⟨0, _⟩ => show win0_0.index t 0 * 1 + 1 * 0 = (i 0).val; omega
  | ⟨1, _⟩ => show win0_0.index t 1 * 768 + 1 * r.val = (i 1).val; omega
  | ⟨2, _⟩ => show win0_0.index t 2 * 64 + 1 * k.val = (i 2).val; omega

/-- The key buffer at a row: the embeddings at the batch and that row. -/
theorem k_at (E : (⟨S16x2216x64, .f32⟩ : BufTy).Contents (Elt Ideal)) (t : Fin cfg0.N)
    (cc : Fin 2216) (k : Fin 64) (i : S16x2216x64.Idx)
    (h0 : (i 0).val = win0_1.index t 0) (h1 : (i 1).val = cc.val) (h2 : (i 2).val = k.val) :
    (win0_1.blk t).view.read (Elt Ideal) E (ix3 (0 : Fin 1) cc k) = E i := by
  obtain ⟨-, -, -, -, i11, i12, -⟩ := idx_facts t
  rw [k_read]
  refine congrArg E (funext fun a => Fin.ext ?_)
  match a with
  | ⟨0, _⟩ => show win0_1.index t 0 * 1 + 1 * 0 = (i 0).val; omega
  | ⟨1, _⟩ => show win0_1.index t 1 * 2216 + 1 * cc.val = (i 1).val; omega
  | ⟨2, _⟩ => show win0_1.index t 2 * 64 + 1 * k.val = (i 2).val; omega

/-- The written-back part of the stored tile at point `t`, computed from the query block filled out with anything
    past the array's end and the key block, is the result window's block of the adjacency. -/
theorem tile_eq (E : (⟨S16x2216x64, .f32⟩ : BufTy).Contents (Elt Ideal)) (t : Fin cfg0.N) (d0 : Vec Ideal S1x768x64 .f32) :
    win0_2.cut (grid0.coords t)
        (k0_pay1 (F := Ideal) (win0_0.fill (grid0.coords t) d0 ((win0_0.blk t).view.read (Elt Ideal) E)) ((win0_1.blk t).view.read (Elt Ideal) E))
      = (win0_2.blk t).view.read (Elt Ideal) (Adjacency.adj E) := by
  funext j
  obtain ⟨h00, h02, h01, h20⟩ := cuts (grid0.coords t)
  obtain ⟨i00, i10, i01, i02, i11, i12, i22⟩ := idx_facts t
  have hj0 : (j 0).val < win0_2.xsize (grid0.coords t) 0 := (j 0).isLt
  have hj1 : (j 1).val < win0_2.xsize (grid0.coords t) 1 := (j 1).isLt
  have hj2 : (j 2).val < 2216 := lt_of_lt_of_le (j 2).isLt (win0_2.xsize_le (grid0.coords t) 2)
  have hr : (j 1).val < 768 := lt_of_lt_of_le (j 1).isLt (win0_2.xsize_le (grid0.coords t) 1)
  have hu : (j 0).val < 1 := by omega
  show k0_pay1 (F := Ideal) _ _ (win0_2.xinj (grid0.coords t) j) = Adjacency.adj E ((win0_2.blk t).view.emb j)
  rw [show win0_2.xinj (grid0.coords t) j = ix3 (⟨(j 0).val, hu⟩ : Fin 1) (⟨(j 1).val, hr⟩ : Fin 768) (⟨(j 2).val, hj2⟩ : Fin 2216) from
    funext fun a => Fin.ext (by match a with | ⟨0, _⟩ => rfl | ⟨1, _⟩ => rfl | ⟨2, _⟩ => rfl)]
  rw [pay_apply]
  unfold Adjacency.adj Adjacency.entry
  refine congrArg (fun s => Ideal.tanh (max s (Ideal.ofBits .f32 0x00000000#32))) (Finset.sum_congr rfl fun k _ => ?_)
  refine congrArg₂ (· * ·) (q_at E t d0 ⟨(j 1).val, hr⟩ k ?_ _ ?_ ?_ ?_) (k_at E t ⟨(j 2).val, hj2⟩ k _ ?_ ?_ ?_)
  · show (j 1).val < win0_0.xsize (grid0.coords t) 1; omega
  · show win0_2.index t 0 * 1 + 1 * (j 0).val = win0_0.index t 0; omega
  · show win0_2.index t 1 * 768 + 1 * (j 1).val = win0_0.index t 1 * 768 + (j 1).val; omega
  · rfl
  · show win0_2.index t 0 * 1 + 1 * (j 0).val = win0_1.index t 0; omega
  · show win0_2.index t 2 * 2216 + 1 * (j 2).val = (j 2).val; omega
  · rfl

end Cert.KernelIdeal.Hand

end
-- ==== Proof.AdjValue.lean ====
/-
  The idealized kernel's run, with its result named: the result array ends holding the adjacency of the
  concatenated embeddings, the two arguments as launched.

  The proof data name what the body leaves at each point: the query buffer at its block of the embeddings, filled
  out past the array's end with zeros (nothing reads that filling: the window is stated on the rows inside the
  array only); the key buffer at its block; the result buffer at its block of the adjacency, filled out likewise.
  The concatenated array is held by halves, one per input window. The result window's blocks — 16 batches by 3 row
  tiles, the last tile cut to the 680 rows inside the array — cover the result array, and each is written back
  once, so the array ends at the adjacency everywhere.
-/
import proofs.«167589_j63393717289324_2_alg».proof.Proof.SharedLaunchIdeal
import proofs.«167589_j63393717289324_2_alg».proof.Proof.TileBlock
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- Window `w`'s block at point `t`, read off its array as the region finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The result window's block of the adjacency of the embeddings. -/
def ablk (c : Dev nD) (t : Fin cfg0.N) : (win0_2.xblock (grid0.coords t)).Idx → Elt Ideal .f32 :=
  (win0_2.blk t).view.read (Elt Ideal) (Adjacency.adj (V m c main_v0))

def dats (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) (ablk m c t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m c).A w = V m c (Pipeline.arrRef spec0 w) := by dsimp only [dats]
theorem after0 (c : Dev nD) (t : Fin cfg0.N) :
    (dats m c).after 0 t = win0_0.fill (grid0.coords t) (fun _ => (0 : EReal)) (iblk m c 0 t) := by dsimp only [dats]
theorem after1 (c : Dev nD) (t : Fin cfg0.N) : (dats m c).after 1 t = iblk m c 1 t := by dsimp only [dats]
theorem after2 (c : Dev nD) (t : Fin cfg0.N) :
    (dats m c).after 2 t = win0_2.fill (grid0.coords t) (fun _ => (0 : EReal)) (ablk m c t) := by dsimp only [dats]

/-- The query window is fetched at every point: its buffer holds its block, anything past the array's end. -/
theorem before0 (c : Dev nD) (t : Fin cfg0.N) (d) :
    (dats m c).before 0 t d = win0_0.fill (grid0.coords t) d (iblk m c 0 t) := by
  rw [(dats m c).before_fetched 0 t (fetch0_0 t) d]
  unfold Dat.fetched Dat.blockOf iblk
  rw [A_eq]

/-- The key window is fetched once per batch and left in place by the body: its buffer holds its block at every point. -/
theorem before1 (c : Dev nD) (t : Fin cfg0.N) (d) : (dats m c).before 1 t d = iblk m c 1 t :=
  ((dats m c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

/-- The body at point `t`, on the staging buffers the pipeline calls it with. -/
theorem value_point (c : Dev nD) (t : Fin cfg0.N) (X0 : Vec Ideal S1x768x64 .f32) (X1 : Vec Ideal S1x2216x64 .f32) (K : PUnit → sProp 𝕄) :
    iprop(owns (c : Thread nD τ) (st0_0 t) fullShare X0 ∗ owns (c : Thread nD τ) (st0_1 t) fullShare X1 ∗ (∃ d, owns (c : Thread nD τ) (st0_2 t) fullShare d)
        ∗ (iprop(owns (c : Thread nD τ) (st0_0 t) fullShare X0 ∗ owns (c : Thread nD τ) (st0_1 t) fullShare X1 ∗ owns (c : Thread nD τ) (st0_2 t) fullShare (tileOut (F := Ideal) X0 X1)) -∗ K ⟨⟩))
      ⊢ wp frame (wpE (defs₀ (F := Ideal)) 𝒱₀ c none) Set.univ (bodyAt0 t) K := by
  unfold bodyAt0
  exact sound_kernel (F := Ideal) c Set.univ (grid0.coords t) _ _ _ _ _ _ X0 X1 K

/-- The body at point `t`, from what the pipeline hands it to what the windows' obligations state: the query
    buffer as found (its block, anything past the array's end), the key buffer at its block, the result buffer at the
    stored tile — which on the rows inside the array is the block of the adjacency (`tile_eq`). -/
theorem loose_point (c : Dev nD) (t : Fin cfg0.N) :
    iprop((dats m c).Φ t.castSucc ∗ (dats m c).owesAt () t.castSucc
        ∗ (∃ d, owns (c : Thread nD τ) (st0_0 t) fullShare ((dats m c).before 0 t d))
        ∗ (∃ d, owns (c : Thread nD τ) (st0_1 t) fullShare ((dats m c).before 1 t d))
        ∗ (∃ d, owns (c : Thread nD τ) (st0_2 t) fullShare ((dats m c).before 2 t d)))
      ⊢ wp frame (wpE (defs₀ (F := Ideal)) 𝒱₀ c none) Set.univ (bodyAt0 t) fun _ =>
          iprop((dats m c).Φ t.succ ∗ (dats m c).owesAt () t.succ
            ∗ (∃ d, owns (c : Thread nD τ) (st0_0 t) fullShare (win0_0.fill (grid0.coords t) d (win0_0.cut (grid0.coords t) ((dats m c).after 0 t))))
            ∗ owns (c : Thread nD τ) (st0_1 t) fullShare ((dats m c).after 1 t)
            ∗ (∃ d, owns (c : Thread nD τ) (st0_2 t) fullShare (win0_2.fill (grid0.coords t) d (win0_2.cut (grid0.coords t) ((dats m c).after 2 t))))) := by
  rw [show (dats m c).Φ t.succ = (dats m c).Φ t.castSucc from rfl,
    show (dats m c).owesAt () t.succ = (dats m c).owesAt () t.castSucc from rfl]
  iintro ⟨HΦ, Ho, ⟨%d0, H0⟩, ⟨%d1, H1⟩, ⟨%d2, H2⟩⟩
  rw [before0 m c t d0, before1 m c t d1]
  iapply (value_point c t (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have e2 : win0_2.cut (grid0.coords t) (tileOut (F := Ideal) (win0_0.fill (grid0.coords t) d0 (iblk m c 0 t)) (iblk m c 1 t)) = ablk m c t := by
    rw [tileOut_eq]; exact tile_eq (V m c main_v0) t d0
  isplitl [H0]
  · iexists d0
    rw [after0, win0_0.cut_fill]; iexact H0
  isplitl [H1]
  · rw [after1]; iexact H1
  · iexists (tileOut (F := Ideal) (win0_0.fill (grid0.coords t) d0 (iblk m c 0 t)) (iblk m c 1 t))
    rw [after2, win0_2.cut_fill, ← e2, win0_2.fill_cut]; iexact H2

theorem body_loose (c : Dev nD) : BodyObligationLoose (dats m c) (defs₀ (F := Ideal)) 𝒱₀ () Set.univ := fun t => by
  rw [bigSep_W0, bigSep_W0]
  exact loose_point m c t

/-! ## The result array after the run -/

/-- What each point writes back is its block of the adjacency. -/
theorem flushed_eq (c : Dev nD) (t : Fin cfg0.N) :
    (dats m c).flushed 2 t = ((cfg0.win 2).blk t).view.read (Elt Ideal) (Adjacency.adj (V m c main_v0)) := by
  show (cfg0.win 2).cut (grid0.coords t) ((dats m c).after 2 t) = _
  rw [after2]
  exact win0_2.cut_fill _ _ _

/-- The result window's schedule over the grid: batch `t / 3`, row tile `t % 3`, all columns; the last tile of a batch
    is cut to the 680 rows inside the array. -/
theorem out_facts : ∀ t : Fin cfg0.N, win0_2.index t 0 = t.val / 3 ∧ win0_2.index t 1 = t.val % 3 ∧ win0_2.index t 2 = 0
    ∧ win0_2.xsize (grid0.coords t) 0 = 1 ∧ win0_2.xsize (grid0.coords t) 1 = (if t.val % 3 = 2 then 680 else 768)
    ∧ win0_2.xsize (grid0.coords t) 2 = 2216 :=
  (by decide +kernel : ∀ t : Fin grid0.N, win0_2.index t 0 = t.val / 3 ∧ win0_2.index t 1 = t.val % 3 ∧ win0_2.index t 2 = 0
    ∧ win0_2.xsize (grid0.coords t) 0 = 1 ∧ win0_2.xsize (grid0.coords t) 1 = (if t.val % 3 = 2 then 680 else 768)
    ∧ win0_2.xsize (grid0.coords t) 2 = 2216)

/-- An index of the result array is in point `t`'s block iff each coordinate is in the block's cut range. -/
theorem mem_out (t : Fin cfg0.N) (i : S16x2216x2216.Idx) :
    i ∈ ((cfg0.win 2).blk t).view.set ↔ ∀ a : Fin 3, win0_2.index t a * S1x768x2216.size a ≤ (i a).val
      ∧ (i a).val < win0_2.index t a * S1x768x2216.size a + win0_2.xsize (grid0.coords t) a := by
  show i ∈ ((View.whole main_v1).slice (win0_2.rect t)).set ↔ _
  rw [View.set_slice_whole, Rect.mem_set_unit]
  exact Iff.rfl

/-- Every entry of the result array is in the block of the point of its batch and row tile. -/
theorem out_cover (i : S16x2216x2216.Idx) : ∃ t : Fin cfg0.N, (cfg0.win 2).flush t = true ∧ i ∈ ((cfg0.win 2).blk t).view.set := by
  have hi0 : (i 0).val < 16 := (i 0).isLt
  have hi1 : (i 1).val < 2216 := (i 1).isLt
  have hi2 : (i 2).val < 2216 := (i 2).isLt
  have hN : cfg0.N = 48 := N_0
  refine ⟨⟨(i 0).val * 3 + (i 1).val / 768, by rw [hN]; omega⟩, flush0_2 _, ?_⟩
  rw [mem_out]
  obtain ⟨e0, e1, e2, x0, x1, x2⟩ := out_facts ⟨(i 0).val * 3 + (i 1).val / 768, by rw [hN]; omega⟩
  intro a
  match a with
  | ⟨0, _⟩ =>
    show win0_2.index _ 0 * 1 ≤ (i 0).val ∧ (i 0).val < win0_2.index _ 0 * 1 + win0_2.xsize _ 0
    rw [e0, x0]; show ((i 0).val * 3 + (i 1).val / 768) / 3 * 1 ≤ (i 0).val ∧ (i 0).val < ((i 0).val * 3 + (i 1).val / 768) / 3 * 1 + 1; omega
  | ⟨1, _⟩ =>
    show win0_2.index _ 1 * 768 ≤ (i 1).val ∧ (i 1).val < win0_2.index _ 1 * 768 + win0_2.xsize _ 1
    rw [e1, x1]
    show ((i 0).val * 3 + (i 1).val / 768) % 3 * 768 ≤ (i 1).val ∧ (i 1).val < ((i 0).val * 3 + (i 1).val / 768) % 3 * 768 + (if ((i 0).val * 3 + (i 1).val / 768) % 3 = 2 then 680 else 768)
    split <;> omega
  | ⟨2, _⟩ =>
    show win0_2.index _ 2 * 2216 ≤ (i 2).val ∧ (i 2).val < win0_2.index _ 2 * 2216 + win0_2.xsize _ 2
    rw [e2, x2]; omega

/-- The result array after every write-back: the adjacency of the embeddings. -/
theorem final_out (c : Dev nD) : (dats m c).arrAt 2 cfg0.N = Adjacency.adj (V m c main_v0) :=
  (dats m c).arrAt_eq_of_cover 2 (Adjacency.adj (V m c main_v0)) (fun t _ => flushed_eq m c t) out_cover

/-- The concatenated embeddings as the region finds them: the one host operation's value of the two arguments. -/
theorem V_main_v0 (c : Dev nD) :
    V m c main_v0 = (concatenate S16x2216x64 1 [⟨S16x2048x64, m ((c.tc : Thread nD τ).loc main_arg0)⟩, ⟨S16x168x64, m ((c.tc : Thread nD τ).loc main_arg1)⟩]
      concatenates_S16x2048x64_S16x168x64_S16x2216x64_d1 : (⟨S16x2216x64, .f32⟩ : BufTy).Contents (Elt Ideal)) := by
  dsimp only [V, hostOps0]; after_results <;> rfl

/-! ## The run -/

/-- Every weakly fair execution of the idealized @main terminates, nothing faulting, with the result array at the
    adjacency of the concatenated embeddings and the two arguments as launched. -/
theorem run :
    θ_run (defs (F := Ideal)) (onTc (τ := τ) (main (F := Ideal))) ⟨m, fun _ => 0, ρ⟩ (fun r => ∀ c : Dev nD,
      r.2.mem ((c.tc : Thread nD τ).loc main_v1) = Adjacency.adj (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(((dats m c).toR_arrAt_iff 2 _ _).mp ((h c).1 2)).trans (final_out m c), (SharedPost.args m h c).1, (SharedPost.args m h c).2⟩)
    (run_shared m ρ (fun c => (dats m c).toR) (fun c => (body_loose m c).toR) (fun _ => rfl) (fun _ => rfl) (fun _ _ => rfl)
      (fun c w => A_eq m c w) (fun _ _ => rfl))

end Cert.KernelIdeal.Hand

end
-- ==== Proof.RefAdjacency.lean ====
/-
  The reference computes the adjacency: its einsum at an index is the inner product of the two nodes' rows of the
  concatenated embeddings, its relu the maximum with zero, its tanh the same tanh.
-/
import proofs.«167589_j63393717289324_2_alg».proof.Proof.Gen.ReferenceIdeal.Read
import proofs.«167589_j63393717289324_2_alg».proof.Proof.AdjacencySpec

noncomputable section

namespace Cert.ReferenceIdeal.RefAdj

open Cert.ReferenceIdeal Cert.ReferenceIdeal.Gen Cert.ReferenceIdeal.Read
open Idealize.ShloMosaic Idealize.ShloMosaic.ValueIdx

/-- The left operand's index of the einsum at `i`, `k`: batch `i 0`, node `i 1`, feature `k`. -/
theorem lidx_eq (i : S16x2216x2216.Idx) (k : Fin 64) : lidx_main_v1 i k = ix3 (i 0) (i 1) k :=
  funext fun a => Fin.ext (by match a with | ⟨0, _⟩ => rfl | ⟨1, _⟩ => rfl | ⟨2, _⟩ => rfl)
/-- The right operand's: batch `i 0`, node `i 2`, feature `k`. -/
theorem ridx_eq (i : S16x2216x2216.Idx) (k : Fin 64) : ridx_main_v1 i k = ix3 (i 0) (i 2) k :=
  funext fun a => Fin.ext (by match a with | ⟨0, _⟩ => rfl | ⟨1, _⟩ => rfl | ⟨2, _⟩ => rfl)

/-- The reference's result is the adjacency of the concatenated embeddings. -/
theorem ref_eq (x0 : (⟨S16x2048x64, .f32⟩ : BufTy).Contents (Elt Ideal)) (x1 : (⟨S16x168x64, .f32⟩ : BufTy).Contents (Elt Ideal)) :
    val_main_v3 (F := Ideal) x0 x1 = Adjacency.adj (val_main_v0 (F := Ideal) x0 x1) := by
  funext i
  rw [val_main_v3_apply, val_main_v2_apply, val_main_v1_apply, val_main_call0_v0_apply, val_main_call0_cst_apply]
  simp only [lidx_eq, ridx_eq, Ideal.hostUnary_tanh_def, Ideal.maximumf_def, Ideal.ofBits_def]
  rfl

end Cert.ReferenceIdeal.RefAdj

end
-- ==== Proof.lean ====
/-
  The certificate: a Pallas kernel that tiles the dense adjacency `tanh (relu (E · Eᵀ))` of a batch of node
  embeddings by rows, against the plain einsum reference, over the extended reals.

  Both programs first concatenate the spatial and temporal nodes into one array `E` of 2216 embeddings of 64
  features per batch. The kernel is handed `E` twice — a row tile of 768 "query" rows and, per batch, all 2216 "key"
  rows — and at each of its 16 × 3 grid points stores the tile `tanh (max (q · keyᵀ) 0)` of the result; the last
  row tile of a batch overhangs the array by 88 rows, which are never written back. The reference contracts `E`
  with itself over the features, batch by batch, clamps at zero and applies tanh. At the ideal instance the kernel's
  changes of float format are the identity and its matrix product into a zero accumulator is the plain sum of
  products, so entry by entry both are `tanh (max (∑ k, E[b, n, k] · E[b, n', k]) 0)` (`Adjacency.adj`): no law of
  the extended reals beyond that spelling is needed, and the precondition (finite inputs) is not used.

  The frames: the kernel's two input windows read one array, so the launch deals that array's full share in halves
  to the two windows (`Hand.run_shared`); the word-level kernel's frame asks nothing of the values (`Hand.frame`),
  the idealized kernel's frame is its named run with the result dropped, and the reference's is its run likewise.
  The ideal pass rewrote nothing: `preserves` is `True`.
-/
import proofs.«167589_j63393717289324_2_alg».proof.Defs
import proofs.«167589_j63393717289324_2_alg».proof.Proof.Gen.Kernel
import proofs.«167589_j63393717289324_2_alg».proof.Proof.Gen.KernelIdeal
import proofs.«167589_j63393717289324_2_alg».proof.Proof.Gen.ReferenceIdeal
import proofs.«167589_j63393717289324_2_alg».proof.Proof.Gen.Pre_finite_inputs
import proofs.«167589_j63393717289324_2_alg».proof.Proof.Gen.ReferenceIdeal.Run
import proofs.«167589_j63393717289324_2_alg».proof.Proof.Gen.ReferenceIdeal.Read
import proofs.«167589_j63393717289324_2_alg».proof.Proof.FrameFree
import proofs.«167589_j63393717289324_2_alg».proof.Proof.AdjValue
import proofs.«167589_j63393717289324_2_alg».proof.Proof.RefAdjacency
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_k : Cert.frame_Kernel := fun m ρ _ => Cert.Kernel.Hand.frame (F := Bits) m ρ

/-- So does its idealization: its named run, the result dropped. -/
theorem frame_ki : Cert.frame_KernelIdeal := fun m ρ _ =>
  (θ_run Cert.KernelIdeal.defs _ _).mono (fun _ h c => (h c).2) (Cert.KernelIdeal.Hand.run m ρ)

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two arguments, both idealized programs end with the result at the adjacency of
    the concatenated embeddings: the kernel's run names it so, the reference's composed term is it
    (`RefAdj.ref_eq`), and the two concatenations are one term of the same arguments. -/
theorem algebraic : Cert.algebraic_KernelIdeal_ReferenceIdeal := by
  intro m ρ m' ρ' _ hagree
  refine ⟨fun c => Adjacency.adj (Cert.KernelIdeal.Hand.V m c Cert.KernelIdeal.main_v0), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefAdj.ref_eq, (hagree c).1, (hagree c).2]
  unfold Cert.ReferenceIdeal.Read.val_main_v0
  exact congrArg Adjacency.adj (Cert.KernelIdeal.Hand.V_main_v0 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
